-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192 : Shape := ⟨2, ![4, 8192]⟩
abbrev S4x1024x3 : Shape := ⟨3, ![4, 1024, 3]⟩
abbrev S4x3x1024 : Shape := ⟨3, ![4, 3, 1024]⟩
abbrev S4x1024 : Shape := ⟨2, ![4, 1024]⟩
abbrev S4x1024x1 : Shape := ⟨3, ![4, 1024, 1]⟩
abbrev S4x1x1024 : Shape := ⟨3, ![4, 1, 1024]⟩
abbrev S4x1024x1024 : Shape := ⟨3, ![4, 1024, 1024]⟩
abbrev S_ : Shape := ⟨0, ![]⟩
abbrev S4 : Shape := ⟨1, ![4]⟩

abbrev nBuf : Space → Nat
  | .hbm => 9
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .local _ .vmem, ⟨0, _⟩ => ⟨S4x1024x3, .f32⟩
  | .local _ .vmem, ⟨1, _⟩ => ⟨S4x1024x3, .f32⟩
  | .local _ .vmem, ⟨2, _⟩ => ⟨S4x3x1024, .f32⟩
  | .local _ .vmem, ⟨3, _⟩ => ⟨S4x3x1024, .f32⟩
  | .local _ .vmem, ⟨4, _⟩ => ⟨S4x1024, .f32⟩
  | .local _ .vmem, ⟨5, _⟩ => ⟨S4x1024, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4x8192x3_S4x3x8192_0_2_1 : S4x8192x3.Transposes [0, 2, 1] S4x3x8192
  inb_S4x1024x3_S4x1024x3_0_0_0 : ∀ a, (![0, 0, 0] : Fin 3 → Nat) a + S4x1024x3.size a ≤ S4x1024x3.size a
  h_S4x1024x3 : 0 < S4x1024x3.numel
  inb_S4x3x1024_S4x3x1024_0_0_0 : ∀ a, (![0, 0, 0] : Fin 3 → Nat) a + S4x3x1024.size a ≤ S4x3x1024.size a
  h_S4x3x1024 : 0 < S4x3x1024.numel
  shapeCasts_S4x3x1024_S4x3x1024 : S4x3x1024.ShapeCasts S4x3x1024
  slices_S4x1024x3_o0_0_0_S4x1024x1 : S4x1024x3.Slices ![0, 0, 0] S4x1024x1
  slices_S4x3x1024_o0_0_0_S4x1x1024 : S4x3x1024.Slices ![0, 0, 0] S4x1x1024
  broadcasts_S4x1024x1_S4x1024x1024 : S4x1024x1.Broadcasts S4x1024x1024
  broadcasts_S4x1x1024_S4x1024x1024 : S4x1x1024.Broadcasts S4x1024x1024
  slices_S4x1024x3_o0_0_1_S4x1024x1 : S4x1024x3.Slices ![0, 0, 1] S4x1024x1
  slices_S4x3x1024_o0_1_0_S4x1x1024 : S4x3x1024.Slices ![0, 1, 0] S4x1x1024
  slices_S4x1024x3_o0_0_2_S4x1024x1 : S4x1024x3.Slices ![0, 0, 2] S4x1024x1
  slices_S4x3x1024_o0_2_0_S4x1x1024 : S4x3x1024.Slices ![0, 2, 0] S4x1x1024
  reduces_S4x1024x1024_S4x1024 : S4x1024x1024.Reduces [2] S4x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  reducesTo_S4x8192_S4_d1 : S4x8192.ReducesTo [1] S4
  h_S_ : 0 < S_.numel
  bcast_S_S4 : S_.BroadcastsInDim S4 (![] : Fin 0 → Fin S4.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x1024.size a ≤ S4x3x8192.size a
  hwx0_1 : ∀ i : grid0.Coords, EltTy.bits .f32 = 32 ∨ (Rect.block (s := S4x3x8192) S4x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)

variable [Facts₀]

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4 : Shape := ⟨1, ![4]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KernelPieces.lean ====
/-
  What one run of the kernel body leaves in the output's staging buffer, as a value.

  The body loads a block `x0` of the first cloud (4 × 1024 points × 3 coordinates), a block `x1` of the second cloud
  transposed (4 × 3 coordinates × 1024 points), computes for each of the 4 × 1024 rows the minimum over the 1024 lanes of the
  squared distance, and stores the lane-wise minimum of that with what the staging buffer held.  At the first tile of a
  row block the buffer is first overwritten with +∞ and read back; at the later tiles it holds what the tile before left.
  So the two control cases leave the same payload, of the loaded blocks and of +∞ or the carried contents.
-/
import proofs.«151205_j44813688767320_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A LATER TILE: over a buffer holding `xo` the body leaves the lane-wise minimum of `xo` and the tile's row minima. -/
theorem out_later (c : Dev nD) (i : grid0.Coords) (a2 : Memref sig .tc .vmem S4x1024x3 .f32) (h2 : a2.IsWhole)
    (a3 : Memref sig .tc .vmem S4x3x1024 .f32) (h3 : a3.IsWhole) (a4 : Memref sig .tc .vmem S4x1024 .f32) (h4 : a4.IsWhole)
    (hc : ¬cond0_0 i) (x0 : Vec F S4x1024x3 .f32) (x1 : Vec F S4x3x1024 .f32) (xo : Vec F S4x1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz2]
  simp only [View.readAt_eq_ld, h2.read_unread, h3.read_unread, h4.read_unread, View.ld_unit_zero (S := S4x1024x3) hz3,
    View.ld_unit_zero (S := S4x3x1024) hz3, View.ld_unit_zero (S := S4x1024) hz2]

/-- THE FIRST TILE: the body stores +∞, reads it back, and leaves the lane-wise minimum of +∞ and the tile's row minima. -/
theorem out_first (c : Dev nD) (i : grid0.Coords) (a2 : Memref sig .tc .vmem S4x1024x3 .f32) (h2 : a2.IsWhole)
    (a3 : Memref sig .tc .vmem S4x3x1024 .f32) (h3 : a3.IsWhole) (a4 : Memref sig .tc .vmem S4x1024 .f32) (h4 : a4.IsWhole)
    (hc : cond0_0 i) (x0 : Vec F S4x1024x3 .f32) (x1 : Vec F S4x3x1024 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S4x1024) hz2, View.readCov_unit_zero (S := S4x1024) _ hz2]
  simp only [View.readAt_eq_ld, h2.read_unread, h3.read_unread, View.ld_unit_zero (S := S4x1024x3) hz3,
    View.ld_unit_zero (S := S4x3x1024) hz3, View.ld_unit_zero (S := S4x1024) hz2]

end Cert.KernelIdeal.Body

end
-- ==== Proof.LibRealEntries.lean ====
/-
  Real entries in the extended reals: general facts, free of any program.

  An extended real is REAL when it is the image of a real number (neither infinity).  Real numbers are closed under
  sums and products, so:
    * a host gather of an array of real numbers holds real numbers (each entry of the result IS an entry of the
      operand, at the operand index the start indices select);
    * a host scatter-add into an array of real numbers, of updates that are real numbers, holds real numbers (each
      entry is the operand's entry plus the finite sum of the updates that land on it);
    * an entry whose flag "|a i| < +infinity" is 1 is real (|x| = max x (−x), and max x (−x) < ⊤ excludes both ends).
-/
import Idealize.ShloMosaic.PureOps.Ideal
import Idealize.ShloMosaic.Lib.ValueIdx

noncomputable section

open scoped BigOperators

namespace Idealize.ShloMosaic.RealEntries

open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is real. -/
theorem IsReal.sum {ι : Type} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The float word +0.0 denotes a real number. -/
theorem zero_word_real : IsReal (Ideal.ofBits .f32 0x00000000#32) := by
  have h : Ideal.ofBits .f32 0x00000000#32 = 0 := by simp [Ideal.ofBits, Ideal.ieee]
  rw [h]; exact IsReal.zero

/-- A host gather of an array of real numbers holds real numbers: every entry is an entry of the operand. -/
theorem gather_real {s si t : Shape} {w : Nat} (d : GatherDims s si t) (x : s.Idx → EReal) (idx : IVec si w)
    (hx : ∀ i, IsReal (x i)) (j : t.Idx) : IsReal (Host.gather d x idx j) := hx _

/-- A host scatter-add of real updates into an array of real numbers holds real numbers: each entry is the operand's
    plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  have e : Host.scatterAdd d x idx upd i = Ideal.hostScatterAdd d x idx upd i := rfl
  rw [e]; unfold Ideal.hostScatterAdd
  exact (hx i).add (IsReal.sum _ _ fun j _ => hu j)

/-- The float word of +infinity denotes the top of the extended reals. -/
theorem top_word : Ideal.ofBits .f32 0x7F800000#32 = ⊤ := by simp [Ideal.ofBits, Ideal.ieee]

/-- An extended real whose absolute value is below the top is a real number. -/
theorem real_of_abs_lt_top {x : EReal} (h : max x (-x) < ⊤) : IsReal x := by
  induction x using EReal.rec with
  | bot => simp at h
  | top => simp at h
  | coe r => exact ⟨r, rfl⟩

/-- An entry whose flag "|a i| < +infinity" is 1 is a real number. -/
theorem real_of_flag {s : Shape} (a B : FVec Ideal s .f32) (hB : ∀ i, B i = Ideal.ofBits .f32 0x7F800000#32) (i : s.Idx)
    (e : cmpf .olt (Host.absf a) B i = 1#1) : IsReal (a i) := by
  have e' : Ideal.cmp .olt (max (a i) (-(a i))) (B i) = 1#1 := e
  rw [hB i, top_word] at e'
  unfold Ideal.cmp at e'
  refine real_of_abs_lt_top ?_
  by_contra hlt
  simp [hlt] at e'

end Idealize.ShloMosaic.RealEntries

end
-- ==== Proof.LibMinReduce.lean ====
/-
  A minimum taken along one axis, read at a result index, free of any program.

  At the exact extended reals a lane minimum (the vector unit's reduction of kind "minimum" over ONE axis) is the
  fold of `min` from the accumulator's value over that axis's coordinates, the result index with the coordinate
  inserted on the reduced axis.  A fold of `min` from the top element is characterised by its lower bounds:
  `z` is below it exactly when `z` is below every term.  A broadcast along a MIDDLE axis of extent one,
  `[a, 1, c] → [a, b, c]`, reads the operand at coordinate zero of that axis.
-/
import Idealize.ShloMosaic.PureOps.Ideal.Laws
import Idealize.ShloMosaic.Lib.Pipeline.Value
import Idealize.ShloMosaic.Lib.ValueIdx

noncomputable section

namespace Cert.MinReduce

open Idealize.ShloMosaic Idealize.ShloMosaic.ValueIdx

/-- A float minimum-reduction over one axis, read at the exact extended reals: the fold of `min` from the accumulator's
    value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lower bounds of a fold of `min` from the top element over a whole finite type are the common lower bounds of
    its terms. -/
theorem le_fold_min_top {ι : Type} [Fintype ι] (f : ι → EReal) (z : EReal) :
    z ≤ (Finset.univ : Finset ι).fold min ⊤ f ↔ ∀ k, z ≤ f k := by
  rw [Finset.le_fold_min]
  exact ⟨fun h k => h.2 k (Finset.mem_univ k), fun h => ⟨le_top, fun k _ => h k⟩⟩

variable {α : Type}

/-- A broadcast `[a, 1, c] → [a, b, c]` at `(i, j, k)` reads the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (fun d => match d with
    | ⟨0, _⟩ => by
        show i.val = if a = 1 then 0 else i.val
        split_ifs with h1
        · have := i.isLt; omega
        · rfl
    | ⟨1, _⟩ => by
        show (0 : Nat) = if (1 : Nat) = 1 then 0 else j.val
        rw [if_pos rfl]
    | ⟨2, _⟩ => by
        show k.val = if c = 1 then 0 else k.val
        split_ifs with h1
        · have := k.isLt; omega
        · rfl)

end Cert.MinReduce

end
-- ==== Proof.LibLayout.lean ====
/-
  Four layout operations read at an index, by coordinates: dropping or adding a trailing axis of extent one is the
  identity on the remaining coordinates (the row-major position does not change), and a broadcast along an axis of
  extent one reads the operand at coordinate zero of that axis.
-/
import Idealize.ShloMosaic.Lib.Pipeline.Value
import Idealize.ShloMosaic.Lib.ValueIdx

noncomputable section

namespace Cert.Layout

open Idealize.ShloMosaic Idealize.ShloMosaic.ValueIdx

variable {α : Type}

/-- `[a, b, 1] → [a, b]` at `(i, j)` reads the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- `[a, b] → [a, b, 1]` at `(i, j, u)` reads the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A broadcast `[a, b, 1] → [a, b, c]` at `(i, j, k)` reads the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun d => match d with
    | ⟨0, _⟩ => by
        show i.val = if a = 1 then 0 else i.val
        split_ifs with h1
        · have := i.isLt; omega
        · rfl
    | ⟨1, _⟩ => by
        show j.val = if b = 1 then 0 else j.val
        split_ifs with h1
        · have := j.isLt; omega
        · rfl
    | ⟨2, _⟩ => by
        show (0 : Nat) = if (1 : Nat) = 1 then 0 else k.val
        rw [if_pos rfl])

/-- A broadcast `[1, b, c] → [a, b, c]` at `(i, j, k)` reads the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) :=
  broadcastTo_apply x h _ _ (fun d => match d with
    | ⟨0, _⟩ => by
        show (0 : Nat) = if (1 : Nat) = 1 then 0 else i.val
        rw [if_pos rfl]
    | ⟨1, _⟩ => by
        show j.val = if b = 1 then 0 else j.val
        split_ifs with h1
        · have := j.isLt; omega
        · rfl
    | ⟨2, _⟩ => by
        show k.val = if c = 1 then 0 else k.val
        split_ifs with h1
        · have := k.isLt; omega
        · rfl)

end Cert.Layout

end
-- ==== Proof.KernelPayload.lean ====
/-
  The body's payload read at a row, over the exact extended reals.

  Row `(b, r)` of what the body stores is the minimum of what the buffer held at `(b, r)` and of the tile's row minimum:
  the minimum, from +∞, over the 1024 lanes `l` of
      (x0(b,r,0) − x1(b,0,l))² + (x0(b,r,1) − x1(b,1,l))² + (x0(b,r,2) − x1(b,2,l))²,
  where `x0` is the loaded block of the first cloud and `x1` the loaded block of the second cloud, transposed.  Column
  `d` of `x0` spread along the lanes reads `x0(b, r, d)` at every lane; row `d` of `x1` spread down the rows reads
  `x1(b, d, l)` at every row.
-/
import proofs.«151205_j44813688767320_2_alg».proof.Proof.Gen.KernelIdeal.Frame
import Idealize.ShloMosaic.Lib.Pipeline.Value
import Idealize.ShloMosaic.Lib.ValueIdx
import Idealize.ShloMosaic.PureOps.Ideal.Laws
import proofs.«151205_j44813688767320_2_alg».proof.Proof.LibRealEntries
import proofs.«151205_j44813688767320_2_alg».proof.Proof.LibMinReduce
import proofs.«151205_j44813688767320_2_alg».proof.Proof.LibLayout

set_option maxRecDepth 16384

noncomputable section

namespace Cert.KernelIdeal.Body

open Cert.KernelIdeal Cert.KernelIdeal.Gen
open Idealize.ShloMosaic Idealize.ShloMosaic.ValueIdx Idealize.ShloMosaic.RealEntries

/-- Column `d` of the first cloud's block, spread along the lanes: at `(b, r, l)` it is `x0(b, r, d)`. -/
theorem col_apply (x0 : S4x1024x3.Idx → EReal) (d : Fin 3) (off : Fin 3 → Nat) (hoff : off = ![0, 0, d.val])
    (hs : S4x1024x3.Slices off S4x1024x1) (hb : S4x1024x1.Broadcasts S4x1024x1024) (b : Fin 4) (r l : Fin 1024) :
    broadcastTo S4x1024x1024 (extractStridedSlice S4x1024x1 off x0 hs) hb (ix3 b r l) = x0 (ix3 b r d) := by
  subst hoff
  refine (Cert.Layout.broadcastTo_ab1_abc_apply _ hb b r l).trans ?_
  exact extractStridedSlice_apply _ x0 hs _ _ (fun a => match a with
    | ⟨0, _⟩ => by show b.val = 0 + b.val; omega
    | ⟨1, _⟩ => by show r.val = 0 + r.val; omega
    | ⟨2, _⟩ => by show d.val = d.val + 0; omega)

/-- Row `d` of the second cloud's transposed block, spread down the rows: at `(b, r, l)` it is `x1(b, d, l)`. -/
theorem row_apply (x1 : S4x3x1024.Idx → EReal) (d : Fin 3) (off : Fin 3 → Nat) (hoff : off = ![0, d.val, 0])
    (hs : S4x3x1024.Slices off S4x1x1024) (hb : S4x1x1024.Broadcasts S4x1024x1024) (b : Fin 4) (r l : Fin 1024) :
    broadcastTo S4x1024x1024 (extractStridedSlice S4x1x1024 off x1 hs) hb (ix3 b r l) = x1 (ix3 b d l) := by
  subst hoff
  refine (Cert.MinReduce.broadcastTo_a1c_abc_apply _ hb b r l).trans ?_
  exact extractStridedSlice_apply _ x1 hs _ _ (fun a => match a with
    | ⟨0, _⟩ => by show b.val = 0 + b.val; omega
    | ⟨1, _⟩ => by show d.val = d.val + 0; omega
    | ⟨2, _⟩ => by show l.val = 0 + l.val; omega)

/-- The squared distance between row `(b, r)` of the first block and lane `(b, l)` of the second. -/
def tileSq (x0 : S4x1024x3.Idx → EReal) (x1 : S4x3x1024.Idx → EReal) (b : Fin 4) (r l : Fin 1024) : EReal :=
  (x0 (ix3 b r (0 : Fin 3)) - x1 (ix3 b (0 : Fin 3) l)) * (x0 (ix3 b r (0 : Fin 3)) - x1 (ix3 b (0 : Fin 3) l))
    + (x0 (ix3 b r (1 : Fin 3)) - x1 (ix3 b (1 : Fin 3) l)) * (x0 (ix3 b r (1 : Fin 3)) - x1 (ix3 b (1 : Fin 3) l))
    + (x0 (ix3 b r (2 : Fin 3)) - x1 (ix3 b (2 : Fin 3) l)) * (x0 (ix3 b r (2 : Fin 3)) - x1 (ix3 b (2 : Fin 3) l))

/-- The inserted index of the lane reduction: row `(b, r)` with lane `l` is `(b, r, l)`. -/
theorem lift_eq (b : Fin 4) (r l : Fin 1024) :
    Facts₀.reduces_S4x1024x1024_S4x1024.lift (ix2 b r) l = ix3 b r l :=
  funext fun a => Fin.ext (by match a with | ⟨0, _⟩ => rfl | ⟨1, _⟩ => rfl | ⟨2, _⟩ => rfl)

/-- THE PAYLOAD AT A ROW. -/
theorem pay2_apply (x0 : Vec Ideal S4x1024x3 .f32) (x1 : Vec Ideal S4x3x1024 .f32) (acc : Vec Ideal S4x1024 .f32)
    (b : Fin 4) (r : Fin 1024) :
    k0_pay2 (F := Ideal) x0 x1 acc (ix2 b r)
      = min (acc (ix2 b r)) ((Finset.univ : Finset (Fin 1024)).fold min ⊤ (fun l => tileSq x0 x1 b r l)) := by
  unfold k0_pay2
  dsimp only
  rw [shapeCast_self, shapeCast_self]
  refine (minimumf_apply _ _ _).trans ?_
  refine congrArg (min (acc (ix2 b r))) ?_
  refine (Cert.MinReduce.multiReduction_minimumf_single _ _ _ _ _ _).trans ?_
  rw [show (FloatOps.ofBits (F := Ideal) .f32 0x7F800000#32 : EReal) = ⊤ from top_word]
  refine congrArg (fun f => Finset.fold min (⊤ : EReal) f (Finset.univ : Finset (Fin 1024))) (funext fun (l : Fin 1024) => ?_)
  change (addf _ _) (Facts₀.reduces_S4x1024x1024_S4x1024.lift (ix2 b r) l) = _
  rw [lift_eq b r l]
  simp only [addf_apply, mulf_apply, subf_apply]
  rw [col_apply x0 (0 : Fin 3) ![0, 0, 0] rfl, col_apply x0 (1 : Fin 3) ![0, 0, 1] rfl, col_apply x0 (2 : Fin 3) ![0, 0, 2] rfl,
    row_apply x1 (0 : Fin 3) ![0, 0, 0] rfl, row_apply x1 (1 : Fin 3) ![0, 1, 0] rfl, row_apply x1 (2 : Fin 3) ![0, 2, 0] rfl]
  rfl

/-- The block of +∞ the first tile stores reads +∞ at every row. -/
theorem pay1_apply (j : S4x1024.Idx) : k0_pay1 (F := Ideal) j = (⊤ : EReal) := by
  unfold k0_pay1
  exact top_word

end Cert.KernelIdeal.Body

end
-- ==== Proof.Spec.lean ====
/-
  The nearest-neighbour squared distance of two clouds of 8192 points in three coordinates, four clouds at a time, as
  ONE function of the two argument arrays, and the one algebraic law that joins its two spellings.

  For a point `x = p(b, n, ·)` of the first cloud and `y = g(b, m, ·)` of the second,
      sqd b n m = (x₀ − y₀)² + (x₁ − y₁)² + (x₂ − y₂)²,          nearest (b, n) = min over m of sqd b n m
  (a minimum from +∞).  The expanded spelling is `max (|x|² + |y|² − 2·⟨x, y⟩) 0` with each sum over the three
  coordinates begun at 0.  Over the REAL numbers the two agree: the square expands, and a sum of squares is never negative
  so the `max` with 0 changes nothing.  Over the extended reals the expansion fails at an infinite coordinate
  (∞ − ∞), which is why the law is stated for arrays of real numbers.

  A running minimum taken tile by tile (1024 candidates `m` at a time, eight tiles) is carried here by its lower
  bounds: `z` is below the running minimum after `k` tiles exactly when `z` is below `sqd b n m` for every
  `m` under `1024·k`; one more tile moves the bound to `1024·(k+1)`, and after the eighth tile the running minimum
  is the minimum over all `m`.
-/
import Idealize.ShloMosaic.PureOps.Ideal
import Idealize.ShloMosaic.PureOps.Ideal.Laws
import Idealize.ShloMosaic.Lib.ValueIdx
import proofs.«151205_j44813688767320_2_alg».proof.Proof.LibRealEntries
import proofs.«151205_j44813688767320_2_alg».proof.Proof.LibMinReduce

noncomputable section

namespace Cert.Chamfer

open Idealize.ShloMosaic Idealize.ShloMosaic.ValueIdx Idealize.ShloMosaic.RealEntries

/-- A cloud array: four batches of 8192 points of three coordinates. -/
abbrev Pts : Type := (⟨3, ![4, 8192, 3]⟩ : Shape).Idx → EReal

/-- The squared distance from point `n` of the first cloud to point `m` of the second, in batch `b`: the three squared
    coordinate differences added first to last. -/
def sqd (p g : Pts) (b : Fin 4) (n m : Fin 8192) : EReal :=
  (p (ix3 b n (0 : Fin 3)) - g (ix3 b m (0 : Fin 3))) * (p (ix3 b n (0 : Fin 3)) - g (ix3 b m (0 : Fin 3)))
    + (p (ix3 b n (1 : Fin 3)) - g (ix3 b m (1 : Fin 3))) * (p (ix3 b n (1 : Fin 3)) - g (ix3 b m (1 : Fin 3)))
    + (p (ix3 b n (2 : Fin 3)) - g (ix3 b m (2 : Fin 3))) * (p (ix3 b n (2 : Fin 3)) - g (ix3 b m (2 : Fin 3)))

/-- The squared distance from each point of the first cloud to its nearest point of the second: the minimum, from +∞,
    over the second cloud's points. -/
def nearest (p g : Pts) : (⟨2, ![4, 8192]⟩ : Shape).Idx → EReal :=
  fun i => (Finset.univ : Finset (Fin 8192)).fold min ⊤ (fun m => sqd p g (i 0) (i 1) m)

/-- The float word of 2.0 denotes the real number 2. -/
theorem two_word : Ideal.ofBits .f32 0x40000000#32 = ((2 : ℝ) : EReal) := by
  simp [Ideal.ofBits, Ideal.ieee, -EReal.coe_mul]; norm_num

/-- THE LAW.  For clouds of real numbers the expanded spelling `max (|x|² + |y|² − 2·⟨x, y⟩) 0`, each sum over the three
    coordinates begun at 0, is the sum of the three squared differences. -/
theorem expanded_eq_sqd (p g : Pts) (hp : ∀ i, IsReal (p i)) (hg : ∀ i, IsReal (g i)) (b : Fin 4) (n m : Fin 8192) :
    max (((0 : EReal) + ∑ d : Fin 3, p (ix3 b n d) * p (ix3 b n d)) + ((0 : EReal) + ∑ d : Fin 3, g (ix3 b m d) * g (ix3 b m d))
        - ((2 : ℝ) : EReal) * ∑ d : Fin 3, p (ix3 b n d) * g (ix3 b m d)) 0
      = sqd p g b n m := by
  choose P hP using hp
  choose G hG using hg
  unfold sqd
  rw [Fin.sum_univ_three, Fin.sum_univ_three, Fin.sum_univ_three]
  simp only [hP, hG]
  set x0 := P (ix3 b n (0 : Fin 3)); set x1 := P (ix3 b n (1 : Fin 3)); set x2 := P (ix3 b n (2 : Fin 3))
  set y0 := G (ix3 b m (0 : Fin 3)); set y1 := G (ix3 b m (1 : Fin 3)); set y2 := G (ix3 b m (2 : Fin 3))
  have hL : ((0 : EReal) + ((x0 : EReal) * x0 + (x1 : EReal) * x1 + (x2 : EReal) * x2))
        + ((0 : EReal) + ((y0 : EReal) * y0 + (y1 : EReal) * y1 + (y2 : EReal) * y2))
        - ((2 : ℝ) : EReal) * ((x0 : EReal) * y0 + (x1 : EReal) * y1 + (x2 : EReal) * y2)
      = (((0 + (x0 * x0 + x1 * x1 + x2 * x2)) + (0 + (y0 * y0 + y1 * y1 + y2 * y2)) - 2 * (x0 * y0 + x1 * y1 + x2 * y2) : ℝ) : EReal) := by
    push_cast; rfl
  have hR : ((x0 : EReal) - y0) * ((x0 : EReal) - y0) + ((x1 : EReal) - y1) * ((x1 : EReal) - y1) + ((x2 : EReal) - y2) * ((x2 : EReal) - y2)
      = (((x0 - y0) * (x0 - y0) + (x1 - y1) * (x1 - y1) + (x2 - y2) * (x2 - y2) : ℝ) : EReal) := by
    push_cast; rfl
  have e : (0 + (x0 * x0 + x1 * x1 + x2 * x2)) + (0 + (y0 * y0 + y1 * y1 + y2 * y2)) - 2 * (x0 * y0 + x1 * y1 + x2 * y2)
      = (x0 - y0) * (x0 - y0) + (x1 - y1) * (x1 - y1) + (x2 - y2) * (x2 - y2) := by ring
  rw [hL, hR, e]
  exact max_eq_left (EReal.coe_nonneg.mpr (add_nonneg (add_nonneg (mul_self_nonneg _) (mul_self_nonneg _)) (mul_self_nonneg _)))

/-- Entry `r` of tile `k` of an axis of 8192 cut into eight tiles of 1024: position `1024·k + r`. -/
def rowOf (k : ℕ) (hk : k < 8) (r : Fin 1024) : Fin 8192 := ⟨1024 * k + r.val, by have := r.isLt; omega⟩

theorem rowOf_val (k : ℕ) (hk : k < 8) (r : Fin 1024) : (rowOf k hk r).val = 1024 * k + r.val := rfl

/-- ONE MORE TILE.  If the lower bounds of `acc` are the common lower bounds of `f m` for `m` under `1024·k`, and those of
    `tile` the common lower bounds of `f (1024·k + l)` for the 1024 lanes `l`, then the lower bounds of `min acc tile` are
    the common lower bounds of `f m` for `m` under `1024·(k+1)`. -/
theorem le_min_tile (f : Fin 8192 → EReal) (k : ℕ) (hk : k < 8) (acc tile : EReal)
    (hacc : ∀ z, z ≤ acc ↔ ∀ mm : Fin 8192, mm.val < 1024 * k → z ≤ f mm)
    (htile : ∀ z, z ≤ tile ↔ ∀ l : Fin 1024, z ≤ f (rowOf k hk l)) (z : EReal) :
    z ≤ min acc tile ↔ ∀ mm : Fin 8192, mm.val < 1024 * (k + 1) → z ≤ f mm := by
  rw [le_min_iff, hacc, htile]
  constructor
  · rintro ⟨h1, h2⟩ mm hmm
    by_cases hlt : mm.val < 1024 * k
    · exact h1 mm hlt
    · have := h2 ⟨mm.val - 1024 * k, by omega⟩
      have e : rowOf k hk ⟨mm.val - 1024 * k, by omega⟩ = mm := Fin.ext (by show 1024 * k + (mm.val - 1024 * k) = mm.val; omega)
      rw [e] at this
      exact this
  · intro h
    exact ⟨fun mm hmm => h mm (by omega), fun l => h _ (by show 1024 * k + l.val < 1024 * (k + 1); have := l.isLt; omega)⟩

/-- Before the first tile nothing has been seen: every `z` is below +∞, and no `m` is under 0. -/
theorem le_top_tile (f : Fin 8192 → EReal) (z : EReal) : z ≤ (⊤ : EReal) ↔ ∀ mm : Fin 8192, mm.val < 1024 * 0 → z ≤ f mm :=
  ⟨fun _ mm hmm => absurd hmm (by omega), fun _ => le_top⟩

/-- AFTER THE EIGHTH TILE.  A value whose lower bounds are the common lower bounds of `f m` over every `m` under
    `1024·8 = 8192` is the minimum of `f` from +∞. -/
theorem eq_fold_min_of_le_iff (f : Fin 8192 → EReal) (v : EReal)
    (h : ∀ z, z ≤ v ↔ ∀ mm : Fin 8192, mm.val < 1024 * (7 + 1) → z ≤ f mm) :
    v = (Finset.univ : Finset (Fin 8192)).fold min ⊤ f :=
  eq_of_forall_le_iff fun z => by
    rw [h z, Cert.MinReduce.le_fold_min_top]
    exact ⟨fun hh mm => hh mm (by have := mm.isLt; omega), fun hh mm _ => hh mm⟩

end Cert.Chamfer

end
-- ==== Proof.KernelBlocks.lean ====
/-
  Which entries of the argument arrays each grid point's blocks hold.

  The grid has 8 × 8 points, the row-tile index slowest: point `t` works on row tile `t / 8` of the first cloud and on
  lane tile `t % 8` of the second.  The first window's block at `t` holds `p(b, 1024·(t/8) + r, d)` at `(b, r, d)`.  The
  second window stages the second cloud TRANSPOSED (the host swaps the last two axes before the call), so its block at
  `t` holds `g(b, 1024·(t%8) + l, d)` at `(b, d, l)`.
-/
import proofs.«151205_j44813688767320_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import proofs.«151205_j44813688767320_2_alg».proof.Proof.Spec

set_option maxRecDepth 16384

noncomputable section

namespace Cert.KernelIdeal.Blocks

open Cert.KernelIdeal Cert.KernelIdeal.Gen Cert.Chamfer
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The printed index maps, decided once over the grid: the first window and the output move with the row tile
    `t / 8`, the second window with the lane tile `t % 8`. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = 0 ∧ win0_1.index t (2 : Fin 3) = t.val % 8
    ∧ win0_2.index t (0 : Fin 2) = 0 ∧ win0_2.index t (1 : Fin 2) = t.val / 8 :=
  (by decide +kernel : ∀ t : Fin grid0.N, _)

theorem lt64 (t : Fin cfg0.N) : t.val < 64 := lt_of_lt_of_eq t.isLt (show cfg0.N = 64 from N_0)
theorem div_lt (t : Fin cfg0.N) : t.val / 8 < 8 := by have := lt64 t; omega
theorem mod_lt (t : Fin cfg0.N) : t.val % 8 < 8 := by omega

/-- The region finds the second window's array at the host's transpose of the second argument. -/
theorem V_main_v0 (c : Dev nD) :
    (V m c main_v0 : S4x3x8192.Idx → Elt F .f32)
      = transpose S4x3x8192 [0, 2, 1] (m ((c : Thread nD τ).loc main_arg1)) Facts₀.transposes_S4x8192x3_S4x3x8192_0_2_1 := by
  show StableHlo.after hostOps0 (fun b => m (c, b)) (Proc.devRef .tc main_v0) = _
  after_results

/-- THE FIRST WINDOW'S BLOCK at point `t`: rows `1024·(t/8) + r` of the first cloud. -/
theorem iblk0_apply (c : Dev nD) (t : Fin cfg0.N) (b : Fin 4) (r : Fin 1024) (d : Fin 3) :
    (iblk m c 0 t : Vec F S4x1024x3 .f32) (ix3 b r d)
      = m ((c : Thread nD τ).loc main_arg0) (ix3 b (rowOf (t.val / 8) (div_lt t) r) d) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 4 + 1 * b.val = b.val; rw [e0]; omega
  | ⟨1, _⟩ => show win0_0.index t (1 : Fin 3) * 1024 + 1 * r.val = 1024 * (t.val / 8) + r.val; rw [e1]; omega
  | ⟨2, _⟩ => show win0_0.index t (2 : Fin 3) * 3 + 1 * d.val = d.val; rw [e2]; omega

/-- THE SECOND WINDOW'S BLOCK at point `t`: points `1024·(t%8) + l` of the second cloud, coordinates and points swapped. -/
theorem iblk1_apply (c : Dev nD) (t : Fin cfg0.N) (b : Fin 4) (d : Fin 3) (l : Fin 1024) :
    (iblk m c 1 t : Vec F S4x3x1024 .f32) (ix3 b d l)
      = m ((c : Thread nD τ).loc main_arg1) (ix3 b (rowOf (t.val % 8) (mod_lt t) l) d) := by
  obtain ⟨-, -, -, e0, e1, e2, -⟩ := idx_facts t
  unfold iblk
  rw [View.read_apply]
  show V m c main_v0 _ = _
  rw [V_main_v0]
  have e : ((cfg0.win 1).blk t).view.emb (ix3 b d l) = (ix3 b d (rowOf (t.val % 8) (mod_lt t) l) : S4x3x8192.Idx) := by
    refine funext fun a => Fin.ext ?_
    match a with
    | ⟨0, _⟩ => show win0_1.index t (0 : Fin 3) * 4 + 1 * b.val = b.val; rw [e0]; omega
    | ⟨1, _⟩ => show win0_1.index t (1 : Fin 3) * 3 + 1 * d.val = d.val; rw [e1]; omega
    | ⟨2, _⟩ => show win0_1.index t (2 : Fin 3) * 1024 + 1 * l.val = 1024 * (t.val % 8) + l.val; rw [e2]; omega
  rw [e]
  exact transpose_ix3_021_apply _ _ b d (rowOf (t.val % 8) (mod_lt t) l)

end Cert.KernelIdeal.Blocks

end
-- ==== Proof.KernelAcc.lean ====
/-
  The running minimum across the grid.

  The output's block for row tile `t / 8` stays in its staging buffer over the eight lane tiles `t % 8 = 0, …, 7`.  After the
  body at point `t`, row `(b, r)` of the buffer is the minimum of the squared distances from point `1024·(t/8) + r` of the first
  cloud to the points `m < 1024·(t%8 + 1)` of the second — carried here by its lower bounds, and proved by induction on the
  point: the first lane tile starts from +∞, every later one from what the point before left (same row tile, one lane
  tile earlier).
-/
import proofs.«151205_j44813688767320_2_alg».proof.Proof.KernelPieces
import proofs.«151205_j44813688767320_2_alg».proof.Proof.KernelPayload
import proofs.«151205_j44813688767320_2_alg».proof.Proof.KernelBlocks

set_option maxRecDepth 16384

noncomputable section

namespace Cert.KernelIdeal.Acc

open Cert.KernelIdeal Cert.KernelIdeal.Gen Cert.Chamfer Cert.KernelIdeal.Body Cert.KernelIdeal.Blocks
open Idealize.ShloMosaic Idealize.ShloMosaic.TcCoe Idealize.SL.Sem Idealize.ShloMosaic.ValueIdx

variable (m : (ℓ : Loc nD τ sig) → Buf (Elt Ideal) ℓ)

/-- The two clouds as launched. -/
abbrev cloudP (c : Dev nD) : Pts := m ((c : Thread nD τ).loc main_arg0)
abbrev cloudG (c : Dev nD) : Pts := m ((c : Thread nD τ).loc main_arg1)

/-- The squared distance between a row of the first block and a lane of the second at point `t` is the squared distance
    between the two cloud points the blocks hold there. -/
theorem tileSq_iblk (c : Dev nD) (t : Fin cfg0.N) (b : Fin 4) (r l : Fin 1024) :
    tileSq (iblk m c 0 t : Vec Ideal S4x1024x3 .f32) (iblk m c 1 t : Vec Ideal S4x3x1024 .f32) b r l
      = sqd (cloudP m c) (cloudG m c) b (rowOf (t.val / 8) (div_lt t) r) (rowOf (t.val % 8) (mod_lt t) l) := by
  unfold tileSq sqd
  rw [iblk0_apply m c t b r 0, iblk0_apply m c t b r 1, iblk0_apply m c t b r 2,
    iblk1_apply m c t b 0 l, iblk1_apply m c t b 1 l, iblk1_apply m c t b 2 l]

/-- The lower bounds of one tile's row minimum. -/
theorem tile_le_iff (c : Dev nD) (t : Fin cfg0.N) (b : Fin 4) (r : Fin 1024) (z : EReal) :
    z ≤ (Finset.univ : Finset (Fin 1024)).fold min ⊤ (fun l => tileSq (iblk m c 0 t : Vec Ideal S4x1024x3 .f32) (iblk m c 1 t : Vec Ideal S4x3x1024 .f32) b r l)
      ↔ ∀ l : Fin 1024, z ≤ sqd (cloudP m c) (cloudG m c) b (rowOf (t.val / 8) (div_lt t) r) (rowOf (t.val % 8) (mod_lt t) l) := by
  rw [Cert.MinReduce.le_fold_min_top]
  exact forall_congr' fun l => by rw [tileSq_iblk]

/-- THE INVARIANT: after the body at point `n`, the lower bounds of row `(b, r)` of the output's staging buffer are the common
    lower bounds of the squared distances to the second cloud's points seen so far. -/
theorem outs_le_iff (c : Dev nD) : ∀ (n : ℕ) (hn : n < cfg0.N) (b : Fin 4) (r : Fin 1024) (z : EReal),
    z ≤ outsAt0 m c n hn (ix2 b r)
      ↔ ∀ mm : Fin 8192, mm.val < 1024 * (n % 8 + 1) →
          z ≤ sqd (cloudP m c) (cloudG m c) b (rowOf (n / 8) (div_lt ⟨n, hn⟩) r) mm := by
  intro n
  induction n using Nat.strong_induction_on with
  | _ n ih =>
    intro hn b r z
    have hN : n < 64 := lt_of_lt_of_eq hn (show cfg0.N = 64 from N_0)
    by_cases h0 : n % 8 = 0
    · rw [outsAt0_A m c ⟨n, hn⟩ h0, out_first, pay2_apply, pay1_apply]
      exact le_min_tile _ (n % 8) (mod_lt ⟨n, hn⟩) _ _
        (fun z => ⟨fun _ mm hmm => absurd hmm (by omega), fun _ => le_top⟩)
        (tile_le_iff m c ⟨n, hn⟩ b r) z
    · rw [outsAt0_B m c ⟨n, hn⟩ h0, out_later, pay2_apply]
      refine le_min_tile _ (n % 8) (mod_lt ⟨n, hn⟩) _ _ (fun z => ?_) (tile_le_iff m c ⟨n, hn⟩ b r) z
      have hr : rowOf ((n - 1) / 8) (div_lt ⟨n - 1, Nat.lt_of_le_of_lt (Nat.sub_le _ _) hn⟩) r = rowOf (n / 8) (div_lt ⟨n, hn⟩) r :=
        Fin.ext (by show 1024 * ((n - 1) / 8) + r.val = 1024 * (n / 8) + r.val; omega)
      have hk : 1024 * ((n - 1) % 8 + 1) = 1024 * (n % 8) := by omega
      have := ih (n - 1) (by omega) (Nat.lt_of_le_of_lt (Nat.sub_le _ _) hn) b r z
      rw [hr, hk] at this
      exact this

/-- AFTER THE LAST LANE TILE of a row tile the buffer's row `(b, r)` is the nearest-neighbour squared distance of point
    `1024·(t/8) + r`. -/
theorem outs_last (c : Dev nD) (t : Fin cfg0.N) (h7 : t.val % 8 = 7) (b : Fin 4) (r : Fin 1024) :
    outsAt0 m c t.val t.isLt (ix2 b r) = nearest (cloudP m c) (cloudG m c) (ix2 b (rowOf (t.val / 8) (div_lt t) r)) := by
  refine eq_fold_min_of_le_iff _ _ fun z => ?_
  have := outs_le_iff m c t.val t.isLt b r z
  rw [h7] at this
  exact this

end Cert.KernelIdeal.Acc

end
-- ==== Proof.KernelArray.lean ====
/-
  From the staging buffer to the result array, and through the host's last lines.

  The output window's block for row tile `q` is written back once, after the last lane tile (point `8·q + 7`), and what is
  written back is rows `1024·q …` of `nearest` of the two clouds.  The eight write-backs tile the 4 × 8192 array, so it ends
  holding `nearest`.  The host then sums each batch's 8192 entries from 0 and divides by 8192: the mean nearest-neighbour
  squared distance per batch.
-/
import proofs.«151205_j44813688767320_2_alg».proof.Proof.KernelAcc
import Idealize.ShloMosaic.Lib.StableHlo.Run

set_option maxRecDepth 16384

noncomputable section

namespace Cert.KernelIdeal.Result

open Cert.KernelIdeal Cert.KernelIdeal.Gen Cert.Chamfer Cert.KernelIdeal.Blocks Cert.KernelIdeal.Acc
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An index of the result array is in point `t`'s block iff each coordinate is in the block's range on its axis. -/
theorem mem_blk (t : Fin cfg0.N) (i : S4x8192.Idx) :
    i ∈ ((cfg0.win 2).blk t).view.set ↔ ∀ a : Fin 2, win0_2.index t a * S4x1024.size a ≤ (i a).val ∧ (i a).val < win0_2.index t a * S4x1024.size a + S4x1024.size a := by
  show i ∈ ((View.whole main_v1).slice (win0_2.rect t)).set ↔ _
  rw [View.set_slice_whole, Rect.mem_set_unit]
  exact Iff.rfl

/-- WHAT A WRITE-BACK WRITES: at the last lane tile of row tile `t / 8`, rows `1024·(t/8) + r` of `nearest`. -/
theorem flushed_eq (c : Dev nD) (t : Fin cfg0.N) (hf : (cfg0.win 2).flush t = true) :
    (dats m 0 c).flushed 2 t = ((cfg0.win 2).blk t).view.read (Elt Ideal) (nearest (cloudP m c) (cloudG m c)) := by
  have h7 : t.val % 8 = 7 := (flush0_2 t).mp hf
  show (cfg0.win 2).cut (grid0.coords t) ((dats m 0 c).after 2 t) = _
  rw [after0_2]
  funext (j : S4x1024.Idx)
  show outsAt0 m c t.val t.isLt j = nearest (cloudP m c) (cloudG m c) (((cfg0.win 2).blk t).view.emb j)
  refine (congrArg (outsAt0 m c t.val t.isLt) (eq_ix2 j)).trans ?_
  refine (outs_last m c t h7 (j 0) (j 1)).trans ?_
  obtain ⟨-, -, -, -, -, -, e0, e1⟩ := idx_facts t
  refine congrArg (nearest (cloudP m c) (cloudG m c)) (funext fun a => Fin.ext ?_)
  match a with
  | ⟨0, _⟩ => show (j 0).val = win0_2.index t (0 : Fin 2) * 4 + 1 * (j 0).val; rw [e0]; omega
  | ⟨1, _⟩ => show 1024 * (t.val / 8) + (j 1).val = win0_2.index t (1 : Fin 2) * 1024 + 1 * (j 1).val; rw [e1]; omega

/-- THE COVER: entry `(b, n)` of the result array is in the block written back at point `8·(n / 1024) + 7`. -/
theorem cover (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 64 := N_0
  have ht : 8 * ((i 1).val / 1024) + 7 < cfg0.N := by rw [hN]; omega
  refine ⟨⟨8 * ((i 1).val / 1024) + 7, ht⟩, (flush0_2 _).mpr (by show (8 * ((i 1).val / 1024) + 7) % 8 = 7; omega), ?_⟩
  rw [mem_blk]
  obtain ⟨-, -, -, -, -, -, e0, e1⟩ := idx_facts ⟨8 * ((i 1).val / 1024) + 7, ht⟩
  have e1' : win0_2.index ⟨8 * ((i 1).val / 1024) + 7, ht⟩ (1 : Fin 2) = (i 1).val / 1024 := by
    rw [e1]; show (8 * ((i 1).val / 1024) + 7) / 8 = (i 1).val / 1024; omega
  intro a
  match a with
  | ⟨0, _⟩ =>
    show win0_2.index ⟨8 * ((i 1).val / 1024) + 7, ht⟩ (0 : Fin 2) * 4 ≤ (i 0).val ∧ (i 0).val < win0_2.index ⟨8 * ((i 1).val / 1024) + 7, ht⟩ (0 : Fin 2) * 4 + 4
    rw [e0]; omega
  | ⟨1, _⟩ =>
    show win0_2.index ⟨8 * ((i 1).val / 1024) + 7, ht⟩ (1 : Fin 2) * 1024 ≤ (i 1).val ∧ (i 1).val < win0_2.index ⟨8 * ((i 1).val / 1024) + 7, ht⟩ (1 : Fin 2) * 1024 + 1024
    rw [e1']; omega

/-- THE RESULT ARRAY of the call ends holding `nearest` of the two clouds. -/
theorem final (c : Dev nD) : (dats m 0 c).arrAt 2 cfg0.N = nearest (cloudP m c) (cloudG m c) :=
  (dats m 0 c).arrAt_eq_of_cover 2 (nearest (cloudP m c) (cloudG m c)) (flushed_eq m c) (fun i => cover i)

/-- The host's last lines: each batch's entries summed from 0, divided by 8192. -/
def meanOver (x : S4x8192.Idx → EReal) : S4.Idx → EReal :=
  Host.divf (F := Ideal) (Host.reduceAdd (F := Ideal) x (constant (F := Ideal) S_ .f32 0x00000000#32) Facts₀.reducesTo_S4x8192_S4_d1 Facts₀.h_S_)
    (broadcastInDim S4 ![] Facts₀.bcast_S_S4 (constant (F := Ideal) S_ .f32 0x46000000#32))

/-- What the lines after the call leave in the program's result. -/
theorem tail_eq (c : Dev nD) :
    Pipeline.afterTail₀ cfgs (dats m) 0 (V0 m) [hostOps1] c main_v4 = meanOver (nearest (cloudP m c) (cloudG m c)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v1)
      = nearest (cloudP m c) (cloudG m c) :=
    (Pipeline.withArrays_arr spec0 launch0.win.arr_inj c _ _ 2).trans (final m c)
  show meanOver _ = meanOver _
  exact congrArg meanOver e

/-- THE KERNEL'S RUN, READ: the program's result at the mean nearest-neighbour squared distance of the launched clouds,
    the arguments unchanged. -/
theorem run : θ_run defs (onTc (τ := τ) (main (F := Ideal))) ⟨m, fun _ => 0, ρ⟩ fun r => ∀ c : Dev nD,
      r.2.mem ((c.tc : Thread nD τ).loc main_v4) = meanOver (nearest (cloudP m c) (cloudG m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefSide.lean ====
/-
  The reference program's minimum stage is `nearest`.

  The reference forms, for every pair `(n, m)` in batch `b`, `max (|x|² + |y|² − 2·⟨x, y⟩) 0` — `|x|²` a sum over the three
  coordinates from 0, spread along `m`; `|y|²` likewise, spread along `n`; `⟨x, y⟩` the contraction of the two clouds over the
  coordinate axis — and takes, for each `(b, n)`, the minimum over `m` from +∞.  For clouds of real numbers each pair's value
  is the squared distance (the law of the specification), so the stage is `nearest`.
-/
import proofs.«151205_j44813688767320_2_alg».proof.Proof.Gen.ReferenceIdeal.Read
import Idealize.ShloMosaic.PureOps.Ideal.Laws
import proofs.«151205_j44813688767320_2_alg».proof.Proof.Spec

set_option maxRecDepth 16384

noncomputable section

namespace Cert.ReferenceIdeal.RefValue

open Cert.ReferenceIdeal Cert.ReferenceIdeal.Gen Cert.ReferenceIdeal.Read Cert.Chamfer
open Idealize.ShloMosaic Idealize.ShloMosaic.ValueIdx Idealize.ShloMosaic.RealEntries

/-- The coordinates the stages read, composed: the row's three coordinates, the column's three coordinates. -/
theorem idx_x2 (b : Fin 4) (n mm : Fin 8192) (k : Fin 3) :
    idx_main_v1 (idx_main_v2 (idx_main_v7 (ix3 b n mm))) k = ix3 b n k :=
  funext fun a => Fin.ext (by match a with | ⟨0, _⟩ => rfl | ⟨1, _⟩ => rfl | ⟨2, _⟩ => rfl)
theorem idx_y2 (b : Fin 4) (n mm : Fin 8192) (k : Fin 3) :
    idx_main_v4 (idx_main_v5 (idx_main_v8 (ix3 b n mm))) k = ix3 b mm k :=
  funext fun a => Fin.ext (by match a with | ⟨0, _⟩ => rfl | ⟨1, _⟩ => rfl | ⟨2, _⟩ => rfl)
theorem idx_l (b : Fin 4) (n mm : Fin 8192) (k : Fin 3) : lidx_main_v6 (ix3 b n mm) k = ix3 b n k :=
  funext fun a => Fin.ext (by match a with | ⟨0, _⟩ => rfl | ⟨1, _⟩ => rfl | ⟨2, _⟩ => rfl)
theorem idx_r (b : Fin 4) (n mm : Fin 8192) (k : Fin 3) : ridx_main_v6 (ix3 b n mm) k = ix3 b mm k :=
  funext fun a => Fin.ext (by match a with | ⟨0, _⟩ => rfl | ⟨1, _⟩ => rfl | ⟨2, _⟩ => rfl)

/-- The clamped expansion at a pair `(n, m)` of batch `b`. -/
theorem v14_apply (x0 x1 : Pts) (b : Fin 4) (n mm : Fin 8192) :
    val_main_v14 (F := Ideal) x0 x1 (ix3 b n mm)
      = max (((0 : EReal) + ∑ d : Fin 3, x0 (ix3 b n d) * x0 (ix3 b n d)) + ((0 : EReal) + ∑ d : Fin 3, x1 (ix3 b mm d) * x1 (ix3 b mm d))
          - ((2 : ℝ) : EReal) * ∑ d : Fin 3, x0 (ix3 b n d) * x1 (ix3 b mm d)) 0 := by
  rw [val_main_v14_apply, val_main_v12_apply, val_main_v9_apply, val_main_v7_apply, val_main_v2_apply, val_main_v1_apply,
    val_main_v8_apply, val_main_v5_apply, val_main_v4_apply, val_main_v11_apply, val_main_v10_apply, val_main_v6_apply,
    val_main_v13_apply]
  simp only [val_main_v0_apply, val_main_v3_apply, val_main_cst_apply, val_main_cst_0_apply, val_main_cst_1_apply,
    val_main_cst_2_apply, idx_x2, idx_y2, idx_l, idx_r, Ideal.maximumf_def, Ideal.subf_def, Ideal.addf_def, Ideal.mulf_def,
    Ideal.ofBits_def, Ideal.ofBits_zero_f32, two_word]

/-- The inserted index of the reference's minimum: `(b, n)` with `m` is `(b, n, m)`. -/
theorem lift_eq (h : S4x8192x8192.Reduces [2] S4x8192) (b : Fin 4) (n mm : Fin 8192) :
    h.lift (ix2 b n) mm = ix3 b n mm :=
  funext fun a => Fin.ext (by match a with | ⟨0, _⟩ => rfl | ⟨1, _⟩ => rfl | ⟨2, _⟩ => rfl)

/-- THE REFERENCE'S MINIMUM STAGE, for clouds of real numbers, is `nearest`. -/
theorem v15_eq (x0 x1 : Pts) (h0 : ∀ i, IsReal (x0 i)) (h1 : ∀ i, IsReal (x1 i)) :
    val_main_v15 (F := Ideal) x0 x1 = nearest x0 x1 := by
  funext (i : (⟨2, ![4, 8192]⟩ : Shape).Idx)
  obtain ⟨b, n, rfl⟩ : ∃ (b : Fin 4) (n : Fin 8192), i = ix2 b n := ⟨i 0, i 1, eq_ix2 i⟩
  have hR : S4x8192x8192.Reduces [2] S4x8192 := by decide
  unfold val_main_v15
  rw [Host.reduce_eq_fold_single FloatOps.minimumf _ _ Facts₀.reducesTo_S4x8192x8192_S4x8192_d2 hR Facts₀.h_S_ (ix2 b n)]
  show Finset.fold min (Ideal.ofBits .f32 0x7F800000#32) _ (Finset.univ : Finset (Fin 8192))
    = Finset.fold min (⊤ : EReal) (fun mm => sqd x0 x1 b n mm) (Finset.univ : Finset (Fin 8192))
  rw [top_word]
  refine congrArg (fun f => Finset.fold min (⊤ : EReal) f (Finset.univ : Finset (Fin 8192))) (funext fun (mm : Fin 8192) => ?_)
  change val_main_v14 (F := Ideal) x0 x1 (hR.lift (ix2 b n) mm) = _
  rw [lift_eq hR b n mm, v14_apply, expanded_eq_sqd x0 x1 h0 h1]

end Cert.ReferenceIdeal.RefValue

end
-- ==== Proof.Finite.lean ====
/-
  From the precondition to real entries.

  The precondition evaluates, for each argument array, "every entry's absolute value is below +∞", conjoins all the flags of
  an array by an `and`-reduction to one bit, and conjoins the two bits.  If the result is 1, both bits are 1, every flag
  is 1, and an entry whose absolute value is below +∞ is a real number.
-/
import proofs.«151205_j44813688767320_2_alg».proof.Pre_finite_inputs
import Idealize.ShloMosaic.PureOps.Ideal
import Idealize.ShloMosaic.Lib.ValueIdx
import Idealize.ShloMosaic.Lib.ReduceAll
import Idealize.ShloMosaic.Lib.Affine
import proofs.«151205_j44813688767320_2_alg».proof.Proof.LibRealEntries

noncomputable section

namespace Cert.Finite

open Idealize.ShloMosaic Idealize.ShloMosaic.RealEntries

/-- Under the precondition both argument arrays hold real numbers. -/
theorem real_of_pre [Cert.Pre_finite_inputs.Facts] (a b : FVec Ideal Cert.Pre_finite_inputs.S4x8192x3 .f32)
    (h : Cert.Pre_finite_inputs.fn (F := Ideal) a b = fun _ => 1#1) :
    (∀ i, IsReal (a i)) ∧ (∀ i, IsReal (b i)) := by
  have h0 := congrFun h ValueIdx.ix0
  dsimp only [Cert.Pre_finite_inputs.fn] at h0
  have h1 := IntOp.andi_eq_one.mp h0
  haveI : Subsingleton Cert.Pre_finite_inputs.S_.Idx := ⟨fun a b => funext fun d => d.elim0⟩
  exact ⟨fun i => real_of_flag a _ (fun _ => rfl) i (Host.reduce_andi_all _ _ _ _ _ h1.1 i),
    fun i => real_of_flag b _ (fun _ => rfl) i (Host.reduce_andi_all _ _ _ _ _ h1.2 i)⟩

end Cert.Finite

end
-- ==== Proof.lean ====
/-
  The mean nearest-neighbour squared distance of two point clouds: the tiled kernel against its textbook reference,
  over the exact extended reals, for clouds of finite numbers.

  Both programs take two arrays of 4 batches × 8192 points × 3 coordinates.  For each point `x` of the first cloud they find the
  squared distance to the nearest point `y` of the second cloud of the same batch, then average the 8192 distances of each batch.

  The kernel cuts both point axes into eight tiles of 1024.  At grid point `(q, k)` it holds rows `1024·q …` of the first cloud
  and columns `1024·k …` of the second (transposed by the host beforehand), forms the 1024 × 1024 squared distances
  `(x₀−y₀)² + (x₁−y₁)² + (x₂−y₂)²` directly, takes each row's minimum over the lanes, and folds it into a running minimum
  that stays in the output's staging buffer across the eight `k` — begun at +∞ when `k = 0`, written back after `k = 7`.
  So entry `(b, n)` of the call's result is the minimum over ALL 8192 points `m` of the squared distance: a minimum does not
  depend on how its terms are grouped.  The reference instead expands the square, `max (|x|² + |y|² − 2·⟨x, y⟩) 0`, and takes
  one minimum over `m`.  Over the real numbers the expansion is an identity and a sum of squares is never negative, so the
  clamp at 0 is idle and the two minima are minima of the same numbers; the precondition (every entry finite) is what puts us
  over the real numbers — at an infinite coordinate the expansion would meet ∞ − ∞.  Both programs end with the same two host
  lines (sum a batch's entries from 0, divide by 8192), applied to equal arrays.

  The three frames are the generated ones (the reference's is its generated run with the result dropped); the idealization
  rewrote nothing, so `preserves` is trivial.
-/
import proofs.«151205_j44813688767320_2_alg».proof.Defs
import proofs.«151205_j44813688767320_2_alg».proof.Proof.Gen.Kernel
import proofs.«151205_j44813688767320_2_alg».proof.Proof.Gen.Kernel.Skeleton
import proofs.«151205_j44813688767320_2_alg».proof.Proof.Gen.Kernel.Launch
import proofs.«151205_j44813688767320_2_alg».proof.Proof.Gen.Kernel.Points
import proofs.«151205_j44813688767320_2_alg».proof.Proof.Gen.Kernel.Frame
import proofs.«151205_j44813688767320_2_alg».proof.Proof.Gen.KernelIdeal
import proofs.«151205_j44813688767320_2_alg».proof.Proof.Gen.KernelIdeal.Skeleton
import proofs.«151205_j44813688767320_2_alg».proof.Proof.Gen.KernelIdeal.Launch
import proofs.«151205_j44813688767320_2_alg».proof.Proof.Gen.KernelIdeal.Points
import proofs.«151205_j44813688767320_2_alg».proof.Proof.Gen.KernelIdeal.Frame
import proofs.«151205_j44813688767320_2_alg».proof.Proof.Gen.ReferenceIdeal
import proofs.«151205_j44813688767320_2_alg».proof.Proof.Gen.ReferenceIdeal.Run
import proofs.«151205_j44813688767320_2_alg».proof.Proof.Gen.ReferenceIdeal.Read
import proofs.«151205_j44813688767320_2_alg».proof.Proof.Gen.Pre_finite_inputs
import proofs.«151205_j44813688767320_2_alg».proof.Proof.KernelArray
import proofs.«151205_j44813688767320_2_alg».proof.Proof.RefSide
import proofs.«151205_j44813688767320_2_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two clouds, whose entries are finite, both programs end at the per-batch mean of
    `nearest` of the clouds: the kernel by its tiled running minimum, the reference because its clamped expansion is the
    squared distance at real entries. -/
theorem algebraic : Cert.algebraic_KernelIdeal_ReferenceIdeal := by
  intro m ρ m' ρ' hpre hagree
  have hreal := fun c => Cert.Finite.real_of_pre _ _ (hpre c)
  refine ⟨fun c => Cert.KernelIdeal.Result.meanOver (Cert.Chamfer.nearest (Cert.KernelIdeal.Acc.cloudP m c) (Cert.KernelIdeal.Acc.cloudG m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v18_eq]
  unfold Cert.ReferenceIdeal.Read.val_main_v18 Cert.ReferenceIdeal.Read.val_main_v16
  rw [Cert.ReferenceIdeal.RefValue.v15_eq _ _ (hreal c).1 (hreal c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
